-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 65
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S100000x64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S64x64, .f32⟩
  | .hbm, ⟨46, _⟩ => ⟨S100000x64, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RefRun.lean ====
/-
  The reference as a straight line of host operations, and its run.

  The reference's entry function is sixty-five tensor operations in sequence: the self-loop index vectors, the degree
  of every node by a scatter-add of ones, its inverse square root where the degree is positive, the edge weights as a
  product of two gathered entries, the dense layer x · Wᵀ as one contraction, the gather of source rows scaled by the
  edge weight, their scatter-add into target rows, the bias and the rectifier. Two of its steps are functions the
  tracer outlined (the selection by a mask, and the rectifier); a call of such a function is its body's operations on
  the call's own buffers, so they stand in the list at the place of the call.

  A program of this kind touches no scoped buffer and no semaphore, so every weakly fair execution of it terminates
  and leaves each buffer at the fold of the operations' results over the launch contents: that fold is what the run
  states, buffer by buffer, and nothing is composed here. The four arguments are written by no operation, so the fold
  at an argument's buffer is the launch contents: the frame.
-/
import proofs.«179120_j39582418600193_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in program order; the two outlined functions' operations stand where they are
    called, on the buffers of that call. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_arg2 main_v31 ((transpose S64x64 [1, 0] · transposes_S64x64_S64x64_1_0) : (⟨S64x64, .f32⟩ : BufTy).Contents (Elt F) → (⟨S64x64, .f32⟩ : BufTy).Contents (Elt F)),
    binary main_arg0 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v32 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

set_option maxRecDepth 8192 in
set_option maxHeartbeats 4000000 in
/-- The entry function is the sequence of these operations: the two halves it is printed in, and the outlined
    functions' bodies, unfold to it. -/
theorem main_eq (c : Dev nD) : main (F := F) c = seq ops := rfl

/-- No buffer of this program is scoped to a kernel, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

set_option maxRecDepth 8192 in
/-- Every operation reads and writes TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
set_option maxHeartbeats 4000000 in
/-- Every weakly fair execution terminates, and each buffer ends at the fold of the operations over the launch
    contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

/-! ## No operation writes an argument -/

set_option maxRecDepth 8192 in
set_option maxHeartbeats 4000000 in
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
set_option maxRecDepth 8192 in
set_option maxHeartbeats 4000000 in
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl
set_option maxRecDepth 8192 in
set_option maxHeartbeats 4000000 in
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl
set_option maxRecDepth 8192 in
set_option maxHeartbeats 4000000 in
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

/-- The frame: the run, with only the arguments read off the final state. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (kept_arg0 m c), (h c main_arg1).trans (kept_arg1 m c),
      (h c main_arg2).trans (kept_arg2 m c), (h c main_arg3).trans (kept_arg3 m c)⟩) (run m ρ)

end Cert.ReferenceIdeal.HostRun

end
-- ==== Proof.RefChain.lean ====
/-
  The part of the layer that the kernel program and the reference compute by the same host operations: from the edge
  list and the transformed node features to the aggregated messages. It is stated once over this program's shapes and
  dimension records, in the pieces the program itself computes one after the other; the other program states the same
  text over its own.
-/
import proofs.«179120_j39582418600193_1_alg».proof.Proof.Gen.ReferenceIdeal
import Idealize.ShloMosaic.PureOps.Ideal

noncomputable section

namespace Cert.ReferenceIdeal.Chain

open Cert.ReferenceIdeal Cert.ReferenceIdeal.Gen Idealize.ShloMosaic

/-- The sources of all edges: row 0 of the edge list, then the 100000 self-loops 0, 1, 2, …. -/
def src (ei : IVec S2x1600000 32) : IVec S1700000 32 :=
  concatenate S1700000 0
    [⟨S1600000, shapeCast _ (extractStridedSlice S1x1600000 ![0, 0] ei slices_S2x1600000_S1x1600000_0_0) shapeCasts_S1x1600000_S1600000⟩,
     ⟨S100000, iotaInDim S100000 32 0⟩] concatenates_S1600000_S100000_S1700000_d0

/-- The targets of all edges: row 1 of the edge list, then the self-loops. -/
def dst (ei : IVec S2x1600000 32) : IVec S1700000 32 :=
  concatenate S1700000 0
    [⟨S1600000, shapeCast _ (extractStridedSlice S1x1600000 ![1, 0] ei slices_S2x1600000_S1x1600000_1_0) shapeCasts_S1x1600000_S1600000⟩,
     ⟨S100000, iotaInDim S100000 32 0⟩] concatenates_S1600000_S100000_S1700000_d0

/-- One per edge. -/
def ones : FVec Ideal S1700000 .f32 := broadcastInDim S1700000 ![] bcast_S_S1700000 (constant S_ .f32 0x3F800000#32)

/-- For every node the number of edges arriving at it: a scatter-add of the ones at the targets, into zeros. -/
def deg (ei : IVec S2x1600000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst ei)) ones

/-- Where the degree is positive, -/
def degPos (ei : IVec S2x1600000 32) : IVec S100000 1 :=
  cmpf .ogt (deg ei) (broadcastInDim S100000 ![] bcast_S_S100000 (constant S_ .f32 0x00000000#32))

/-- and its inverse square root. -/
def degRsqrt (ei : IVec S2x1600000 32) : FVec Ideal S100000 .f32 := Host.rsqrt (deg ei)

/-- From the index vectors `s`, `d`, the ones `o`, the mask `pos` and inverse square roots `rs` of the degrees, the
    scalar `z` that stands where the mask fails, and the transformed features `xw`, to the aggregated messages:

    * `dinv`: `rs` where `pos` holds and `z` elsewhere;
    * `wrap v`: an index vector with the negative entries moved up by the number of nodes, as array indexing does;
    * the weight of every edge: dinv at its source, times one, times dinv at its target;
    * the message of every edge: its weight on each of the 64 features of its source's row of `xw`;
    * the result: for every node the sum of the messages arriving at it, a scatter-add at the targets into zeros. -/
def tail (s d : IVec S1700000 32) (o : FVec Ideal S1700000 .f32) (pos : IVec S100000 1) (rs : FVec Ideal S100000 .f32)
    (z : FVec Ideal S_ .f32) (xw : FVec Ideal S100000x64 .f32) : FVec Ideal S100000x64 .f32 :=
  let dinv : FVec Ideal S100000 .f32 := select pos rs (broadcastInDim S100000 ![] bcast_S_S100000 (id z))
  let wrap : IVec S1700000 32 → IVec S1700000 32 := fun v => select
    (cmpi .slt v (broadcastInDim S1700000 ![] bcast_S_S1700000 (constantI S_ 32 0#32)))
    (addi v (broadcastInDim S1700000 ![] bcast_S_S1700000 (constantI S_ 32 100000#32))) v
  let norm : FVec Ideal S1700000 .f32 := mulf
    (mulf (Host.gather gather_S100000_S1700000x1_S1700000_n_0_n_n_0_1_1 dinv
        (broadcastInDim S1700000x1 ![0] bcast_S1700000_S1700000x1_0 (wrap s))) o)
    (Host.gather gather_S100000_S1700000x1_S1700000_n_0_n_n_0_1_1 dinv
        (broadcastInDim S1700000x1 ![0] bcast_S1700000_S1700000x1_0 (wrap d)))
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (broadcastInDim S1700000x64 ![0, 1] bcast_S1700000x1_S1700000x64_0_1
        (broadcastInDim S1700000x1 ![0] bcast_S1700000_S1700000x1_0 norm))
      (Host.gather gather_S100000x64_S1700000x1_S1700000x64_1_0_n_n_0_1_164 xw
        (broadcastInDim S1700000x1 ![0] bcast_S1700000_S1700000x1_0 (wrap s))))

/-- The operations the kernel program and the reference share, as ONE function of the edge list `ei` (a 2 × 1600000
    array of node numbers: row 0 the sources, row 1 the targets) and of the transformed features `xw`: the aggregated
    messages, with the symmetric normalisation by the degrees. Neither program's proof looks inside its arithmetic: each
    shows that its own operations compose to it, applied to its own `xw`. -/
def chain (ei : IVec S2x1600000 32) (xw : FVec Ideal S100000x64 .f32) : FVec Ideal S100000x64 .f32 :=
  tail (src ei) (dst ei) ones (degPos ei) (degRsqrt ei) (constant S_ .f32 0x00000000#32) xw

end Cert.ReferenceIdeal.Chain

end
-- ==== Proof.Spec.lean ====
/-
  The two pieces of arithmetic in which the kernel and its reference are spelt differently, as functions of whole
  arrays read index by index over the extended reals. Everything else the two programs do (self-loops, degrees,
  the symmetric normalisation, the gather of source rows and the scatter-add into target rows) is the same chain
  of host operations applied to these, and is never opened.

  * `feat x wt`: the dense layer. Entry (p, u) is the sum over k of x (p, k) · wt (k, u): the product of the
    node features with the transposed weight. The kernel computes it tile by tile (5000 rows at a time) on the
    matrix unit from operands narrowed to bf16, which at exact values is no change; the reference is one
    contraction over the whole array. A finite sum in the extended reals does not depend on its grouping.
  * `biasFloor a b`: entry (p, u) is max (a (p, u) + b (0, u)) 0 — the bias row added to every node's row, then
    the rectifier. The kernel does it tile by tile on a 1 × 64 copy of the bias; the reference broadcasts the bias
    to the whole array first.
-/
import Idealize.ShloMosaic.PureOps.Ideal
import Idealize.ShloMosaic.Lib.ValueIdx

noncomputable section

open scoped BigOperators

namespace Cert.Gcn

open Idealize.ShloMosaic Idealize.ShloMosaic.ValueIdx

/-- Node-feature arrays: 100000 nodes, 64 features each. -/
abbrev Nodes : Shape := ⟨2, ![100000, 64]⟩
/-- The (transposed) weight. -/
abbrev Sq : Shape := ⟨2, ![64, 64]⟩
/-- The bias as a one-row array. -/
abbrev Row : Shape := ⟨2, ![1, 64]⟩

/-- Entry (p, u) of the product of the features with the transposed weight: Σₖ x (p, k) · wt (k, u). -/
def feat (x : FVec Ideal Nodes .f32) (wt : FVec Ideal Sq .f32) : FVec Ideal Nodes .f32 :=
  fun i => ∑ k : Fin 64, x (ix2 (n0 := 100000) (n1 := 64) (i 0) k) * wt (ix2 (n0 := 64) (n1 := 64) k (i 1))

/-- Entry (p, u) of "add the bias row, then floor at zero": max (a (p, u) + b (0, u)) 0, the zero kept as the
    word both programs print for it. -/
def biasFloor (a : FVec Ideal Nodes .f32) (b : FVec Ideal Row .f32) : FVec Ideal Nodes .f32 :=
  fun i => max (a i + b (ix2 (n0 := 1) (n1 := 64) 0 (i 1))) (Ideal.ofBits .f32 0x00000000#32)

theorem feat_apply (x : FVec Ideal Nodes .f32) (wt : FVec Ideal Sq .f32) (p : Fin 100000) (u : Fin 64) :
    feat x wt (ix2 p u) = ∑ k : Fin 64, x (ix2 p k) * wt (ix2 k u) := rfl

theorem biasFloor_apply (a : FVec Ideal Nodes .f32) (b : FVec Ideal Row .f32) (p : Fin 100000) (u : Fin 64) :
    biasFloor a b (ix2 p u) = max (a (ix2 p u) + b (ix2 0 u)) (Ideal.ofBits .f32 0x00000000#32) := rfl

end Cert.Gcn

end
-- ==== Proof.RefValue.lean ====
/-
  The reference's value.

  The reference's last buffer, after its sixty-five operations, is the bias row added to the aggregate and floored
  at zero, where the aggregate is the shared chain of host operations applied to the edge list and to the dense
  layer x · Wᵀ. Two of its steps are read index by index here: the contraction is the sum over k of
  x (p, k) · wt (k, u), and the tail (broadcast of the bias row, addition, maximum with a broadcast zero) is
  max (a (p, u) + b (0, u)) 0 at every index. Everything between them is carried as one function and never opened.
-/
import proofs.«179120_j39582418600193_1_alg».proof.Proof.RefRun
import proofs.«179120_j39582418600193_1_alg».proof.Proof.RefChain
import proofs.«179120_j39582418600193_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.ReferenceIdeal.HostValue

open Cert.ReferenceIdeal Cert.ReferenceIdeal.Gen Cert.ReferenceIdeal.HostRun Idealize.ShloMosaic Idealize.ShloMosaic.TcCoe Idealize.SL.Sem Idealize.ShloMosaic.StableHlo Idealize.ShloMosaic.ValueIdx

/-! ## The contraction, index by index -/

/-- The contraction's record, under a short name. -/
abbrev DD : DotDims S100000x64 S64x64 S100000x64 := dot_S100000x64_S64x64_S100000x64_1_0_0_1_n_n

/-- The left operand is read at the output's row … -/
theorem lhs_0 (i : S100000x64.Idx) (q : DD.contr.Idx) : (DD.lhsIdx i q 0).val = (i 0).val := by
  unfold DotDims.lhsIdx
  rw [dif_neg (show ¬(0 : Fin S100000x64.rank) ∈ DD.lhsBatch by decide), dif_pos (show (0 : Fin S100000x64.rank) ∈ DD.lhsNonContracting by decide)]
  rfl
/-- … and the contraction coordinate; -/
theorem lhs_1 (i : S100000x64.Idx) (q : DD.contr.Idx) : (DD.lhsIdx i q 1).val = (q ⟨0, by decide⟩).val :=
  DD.lhsIdx_val_of_single rfl i q
/-- the right operand at the contraction coordinate … -/
theorem rhs_0 (i : S100000x64.Idx) (q : DD.contr.Idx) : (DD.rhsIdx i q 0).val = (q ⟨0, by decide⟩).val :=
  DD.rhsIdx_val_of_single rfl i q
/-- … and the output's column. -/
theorem rhs_1 (i : S100000x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

set_option maxHeartbeats 400000 in
/-- The reference's contraction is the dense layer: entry (p, u) is the sum over k of x (p, k) · wt (k, u). The
    contraction index has one axis of extent 64; the sum is re-indexed through its one coordinate. -/
theorem dot_eq_feat (x : FVec Ideal S100000x64 .f32) (wt : FVec Ideal S64x64 .f32) :
    Host.dotGeneral (F := Ideal) dot_S100000x64_S64x64_S100000x64_1_0_0_1_n_n none x wt = Cert.Gcn.feat x wt := by
  funext i
  simp only [Host.dotGeneral]
  rw [Ideal.dotGeneral_apply, ← Equiv.sum_comp (contrEquiv1 DD 64 rfl rfl).symm]
  unfold Cert.Gcn.feat
  refine Finset.sum_congr rfl fun k _ => ?_
  have hk := contrEquiv1_symm_val DD 64 rfl rfl k
  have el : DD.lhsIdx i ((contrEquiv1 DD 64 rfl rfl).symm k) = ix2 (n0 := 100000) (n1 := 64) (i 0) k :=
    funext fun a => Fin.ext (by
      match a with
      | ⟨0, _⟩ => exact lhs_0 _ _
      | ⟨1, _⟩ => exact (lhs_1 _ _).trans hk)
  have er : DD.rhsIdx i ((contrEquiv1 DD 64 rfl rfl).symm k) = ix2 (n0 := 64) (n1 := 64) k (i 1) :=
    funext fun a => Fin.ext (by
      match a with
      | ⟨0, _⟩ => exact (rhs_0 _ _).trans hk
      | ⟨1, _⟩ => exact rhs_1 _ _)
  rw [el, er]

/-! ## The tail, index by index -/

set_option maxHeartbeats 400000 in
/-- The bias row broadcast along the nodes, added, then the maximum with a broadcast zero: at (p, u) this is
    max (a (p, u) + b (0, u)) 0. The row's first axis has extent one, so it is read at 0 there; the zero is a scalar,
    read at its one index. -/
theorem tail_eq (agg : FVec Ideal S100000x64 .f32) (row : FVec Ideal S1x64 .f32) :
    maximumf (addf agg (broadcastInDim S100000x64 ![0, 1] bcast_S1x64_S100000x64_0_1 row))
        (broadcastInDim S100000x64 ![] bcast_S_S100000x64 (constant (F := Ideal) S_ .f32 0x00000000#32))
      = Cert.Gcn.biasFloor agg row := by
  funext i
  rw [maximumf_apply, addf_apply]
  rw [broadcastInDim_apply ![0, 1] bcast_S1x64_S100000x64_0_1 row i (ix2 (n0 := 1) (n1 := 64) 0 (i 1)) (fun a =>
      match a with
      | ⟨0, _⟩ => rfl
      | ⟨1, _⟩ => rfl)]
  rw [broadcastInDim_apply ![] bcast_S_S100000x64 (constant (F := Ideal) S_ .f32 0x00000000#32) i ix0 (fun a => a.elim0)]
  rw [constant_apply]
  rfl

/-! ## The operations whose result is stated through a change of type, read without it

A reshape and a call of an outlined function state their result through a transport along an equation between the
buffer's type and the value's; at these literal buffers the two types are the same and the transport is the identity.
One equation per such operation, so that the composed term carries no transport. -/

section Clean
variable (G : Valuation τ sig (Elt Ideal))

theorem v2_result : (reshape (τ := τ) (Val := Elt Ideal) main_v1 main_v2 rfl shapeCasts_S1x1600000_S1600000).result G (no_index (Proc.devRef .tc main_v2))
    = (shapeCast S1600000 (G (Proc.devRef .tc main_v1) : IVec S1x1600000 32) shapeCasts_S1x1600000_S1600000 : IVec S1600000 32) := rfl
theorem v5_result : (reshape (τ := τ) (Val := Elt Ideal) main_v4 main_v5 rfl shapeCasts_S1x1600000_S1600000).result G (no_index (Proc.devRef .tc main_v5))
    = (shapeCast S1600000 (G (Proc.devRef .tc main_v4) : IVec S1x1600000 32) shapeCasts_S1x1600000_S1600000 : IVec S1600000 32) := rfl
theorem c0v0_result : (TRef.unary (τ := τ) (Val := Elt Ideal) (TRef.of (T := ⟨S_, .f32⟩) main_cst_2) (TRef.of (T := ⟨S_, .f32⟩) main_call0_v0) id).result G (no_index (Proc.devRef .tc main_call0_v0))
    = (id (G (Proc.devRef .tc main_cst_2) : FVec Ideal S_ .f32) : FVec Ideal S_ .f32) := rfl
theorem c0v1_result : (TRef.unary (τ := τ) (Val := Elt Ideal) (TRef.of (T := ⟨S_, .f32⟩) main_call0_v0) (TRef.of (T := ⟨S100000, .f32⟩) main_call0_v1) (broadcastInDim S100000 ![] bcast_S_S100000)).result G (no_index (Proc.devRef .tc main_call0_v1))
    = (broadcastInDim S100000 ![] bcast_S_S100000 (G (Proc.devRef .tc main_call0_v0) : FVec Ideal S_ .f32) : FVec Ideal S100000 .f32) := rfl
theorem v14_result : (TRef.ternary (τ := τ) (Val := Elt Ideal) (TRef.of (T := ⟨S100000, .i1⟩) main_v12) (TRef.of (T := ⟨S100000, .f32⟩) main_v13) (TRef.of (T := ⟨S100000, .f32⟩) main_call0_v1) (TRef.of (T := ⟨S100000, .f32⟩) main_v14) select).result G (no_index (Proc.devRef .tc main_v14))
    = (select (G (Proc.devRef .tc main_v12) : IVec S100000 1) (G (Proc.devRef .tc main_v13) : FVec Ideal S100000 .f32) (G (Proc.devRef .tc main_call0_v1) : FVec Ideal S100000 .f32) : FVec Ideal S100000 .f32) := rfl
theorem c1cst_result : (TRef.nullary (τ := τ) (Val := Elt Ideal) (TRef.of (T := ⟨S_, .f32⟩) main_call1_cst) (constant (F := Ideal) S_ .f32 0x00000000#32)).result G (no_index (Proc.devRef .tc main_call1_cst))
    = (constant (F := Ideal) S_ .f32 0x00000000#32 : FVec Ideal S_ .f32) := rfl
theorem c1v0_result : (TRef.unary (τ := τ) (Val := Elt Ideal) (TRef.of (T := ⟨S_, .f32⟩) main_call1_cst) (TRef.of (T := ⟨S100000x64, .f32⟩) main_call1_v0) (broadcastInDim S100000x64 ![] bcast_S_S100000x64)).result G (no_index (Proc.devRef .tc main_call1_v0))
    = (broadcastInDim S100000x64 ![] bcast_S_S100000x64 (G (Proc.devRef .tc main_call1_cst) : FVec Ideal S_ .f32) : FVec Ideal S100000x64 .f32) := rfl
theorem v49_result : (TRef.binary (τ := τ) (Val := Elt Ideal) (TRef.of (T := ⟨S100000x64, .f32⟩) main_v48) (TRef.of (T := ⟨S100000x64, .f32⟩) main_call1_v0) (TRef.of (T := ⟨S100000x64, .f32⟩) main_v49) (maximumf (F := Ideal) (s := S100000x64) (φ := .f32))).result G (no_index (Proc.devRef .tc main_v49))
    = (maximumf (G (Proc.devRef .tc main_v48) : FVec Ideal S100000x64 .f32) (G (Proc.devRef .tc main_call1_v0) : FVec Ideal S100000x64 .f32) : FVec Ideal S100000x64 .f32) := rfl

end Clean

/-! ## The fold is the composed term -/

set_option maxHeartbeats 4000000 in
/-- From any contents of the buffers, the last buffer after the sixty-five operations is the composed term: the tail
    applied to the shared chain of the edge list and of the contraction, and to the broadcast bias. Each operation's
    result is read at its own buffer and every other buffer is left as it was; what is left is the chain's own text. -/
theorem fold_eq (Z : Valuation τ sig (Elt Ideal)) :
    after (ops (F := Ideal)) Z (Proc.devRef .tc main_v49)
      = maximumf
          (addf
            (Cert.ReferenceIdeal.Chain.chain (Z (Proc.devRef .tc main_arg1) : IVec S2x1600000 32)
              (Host.dotGeneral (F := Ideal) (φ₁ := .f32) (φ₂ := .f32) dot_S100000x64_S64x64_S100000x64_1_0_0_1_n_n none (Z (Proc.devRef .tc main_arg0) : FVec Ideal S100000x64 .f32)
                (transpose S64x64 [1, 0] (Z (Proc.devRef .tc main_arg2) : FVec Ideal S64x64 .f32) transposes_S64x64_S64x64_1_0 : FVec Ideal S64x64 .f32)))
            (broadcastInDim S100000x64 ![0, 1] bcast_S1x64_S100000x64_0_1
              (broadcastInDim S1x64 ![1] bcast_S64_S1x64_1 (Z (Proc.devRef .tc main_arg3) : FVec Ideal S64 .f32) : FVec Ideal S1x64 .f32)))
          (broadcastInDim S100000x64 ![] bcast_S_S100000x64 (constant (F := Ideal) S_ .f32 0x00000000#32)) := by
  show after ops Z (Proc.devRef .tc main_v49) = _
  simp (disch := decide) only [after_cons, after_nil,
      ↓v2_result, ↓v5_result, ↓c0v0_result, ↓c0v1_result, ↓v14_result, ↓c1cst_result, ↓c1v0_result, ↓v49_result,
      nullary_result', unary_result', binary_result', ternary_result',
      nullary_result_ne', unary_result_ne', binary_result_ne', ternary_result_ne', reshape_result_ne']
  repeat (first
    | rw [v2_result] | rw [v5_result]
    | rw [nullary_result] | rw [unary_result] | rw [binary_result]
    | (rw [nullary_result_ne]; rotate_left; decide)
    | (rw [unary_result_ne]; rotate_left; decide)
    | (rw [binary_result_ne]; rotate_left; decide)
    | (rw [reshape_result_ne]; rotate_left; decide))
  rfl

/-! ## The reference's value -/

/-- At launch an argument's buffer holds the argument. -/
theorem launch_arg0 (m : (ℓ : Loc nD τ sig) → Buf (Elt Ideal) ℓ) (c : Dev nD) :
    launchContents m c (Proc.devRef .tc main_arg0) = m ((c.tc : Thread nD τ).loc main_arg0) := rfl
theorem launch_arg1 (m : (ℓ : Loc nD τ sig) → Buf (Elt Ideal) ℓ) (c : Dev nD) :
    launchContents m c (Proc.devRef .tc main_arg1) = m ((c.tc : Thread nD τ).loc main_arg1) := rfl
theorem launch_arg2 (m : (ℓ : Loc nD τ sig) → Buf (Elt Ideal) ℓ) (c : Dev nD) :
    launchContents m c (Proc.devRef .tc main_arg2) = m ((c.tc : Thread nD τ).loc main_arg2) := rfl
theorem launch_arg3 (m : (ℓ : Loc nD τ sig) → Buf (Elt Ideal) ℓ) (c : Dev nD) :
    launchContents m c (Proc.devRef .tc main_arg3) = m ((c.tc : Thread nD τ).loc main_arg3) := rfl

set_option maxHeartbeats 400000 in
/-- The reference's result: the bias row added to the shared chain of the edge list and of the dense layer
    x · Wᵀ, floored at zero. -/
theorem result_eq (m : (ℓ : Loc nD τ sig) → Buf (Elt Ideal) ℓ) (c : Dev nD) :
    after (ops (F := Ideal)) (launchContents m c) (Proc.devRef .tc main_v49)
      = Cert.Gcn.biasFloor
          (Cert.ReferenceIdeal.Chain.chain (m ((c.tc : Thread nD τ).loc main_arg1) : IVec S2x1600000 32)
            (Cert.Gcn.feat (m ((c.tc : Thread nD τ).loc main_arg0) : FVec Ideal S100000x64 .f32)
              (transpose S64x64 [1, 0] (m ((c.tc : Thread nD τ).loc main_arg2) : FVec Ideal S64x64 .f32) transposes_S64x64_S64x64_1_0 : FVec Ideal S64x64 .f32)))
          (broadcastInDim S1x64 ![1] bcast_S64_S1x64_1 (m ((c.tc : Thread nD τ).loc main_arg3) : FVec Ideal S64 .f32) : FVec Ideal S1x64 .f32) := by
  refine (fold_eq (launchContents m c)).trans ((tail_eq _ _).trans ?_)
  rw [dot_eq_feat, launch_arg0, launch_arg1, launch_arg2, launch_arg3]

end Cert.ReferenceIdeal.HostValue

end
-- ==== Proof.KernelRun.lean ====
/-
  The kernel program's run, with its result named.

  The kernel's entry function is six segments: the transpose of the weight, the pallas region of the dense layer,
  three stretches of host operations (the index vectors and degrees; the outlined selection; the edge weights, the
  gather, the scatter-add and the reshaped bias), and the pallas region of the bias and rectifier. The frame of this
  program is established segment by segment: each host stretch takes every unscoped buffer from the contents at one
  boundary to the fold of its operations over them, and each region takes them from its entry contents to the same
  contents with its arrays replaced by what its pipeline leaves — the inputs as entered, the output at its tiles'
  write-backs folded over the grid. The last boundary's contents are therefore a function of the launch memory alone,
  and the launch theorem reads EVERY unscoped buffer of the final state against them.

  The frame keeps, of that reading, only the four arguments. Here the same launch is made over the same segments and
  thread states, and the result buffer is read as well: after every weakly fair execution the result holds the last
  boundary's contents at the result's buffer, and the arguments are as launched.
-/
import proofs.«179120_j39582418600193_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; the result buffer ends at the
    last boundary's contents (the second region's exit) and the four arguments as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    -- the entry function is the run of the six segments
    (fun c Q => by rw [main_run m ρ c])
    -- each of the two pipelines is entered once
    (by simp only [segs, Pipeline.Seg.pipes_host, Pipeline.Seg.pipes_region, Pipeline.Seg.pipes_nil]; decide)
    -- no core owes another anything at launch, and no ghost state beyond the pipelines' own is dealt
    (O₀ := 0) (hL := fun _ _ => rfl) (G := fun _ => iprop(emp))
    (u₀ := initOf (Pipeline.cells cfgs cellOf_inj) (Pipeline.launchToks cfgs cellOf_inj))
    -- the launch element IS the pipelines' initial staging cells and tokens; the per-core ghost state is empty
    (hu₀ := by
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      · iapply (show (BI.emp : sProp 𝕄) ⊢ bigSep Finset.univ (fun _ : Dev nD => (BI.emp : sProp 𝕄)) from by rw [BI.bigSep_emp_const])
        iempintro)
    -- the first thread state: every unscoped buffer at its launch contents, beside the generator register and an
    -- empty debt; the last: every unscoped buffer at the last boundary's contents, beside the generator register
    (T₀ := fun c => iprop(StableHlo.held (c : Thread nD τ) (Pipeline.ucRefs τ sig) (W0 m ρ c) ∗ R c)) (Tₙ := Tₙ m ρ)
    -- each segment's exit state is literally the next one's entry state
    (hch := ⟨fun _ => .rfl, fun _ => .rfl, fun _ => .rfl, fun _ => .rfl, fun _ => .rfl, fun _ => .rfl, fun _ => .rfl⟩)
    -- what the launch deals to a core contains that first thread state: its unscoped buffers at the launch memory,
    -- its generator register, and its (empty) debt; the rest of the deal is dropped
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    -- the last thread state holds every unscoped buffer whole, so the final physical state agrees with the last
    -- boundary's contents at each of them
    (QY := fun c s => ∀ b ∈ Pipeline.ucRefs τ sig, s.mem (((c : Thread nD τ)).1, b) = W6 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W6 m ρ c) s')
      isplitl [Hbufs] <;> iassumption)
    -- of that agreement: the result's buffer, and the four arguments walked back to the launch memory
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.ValueRun

end
-- ==== Proof.KernelChain.lean ====
/-
  The part of the layer that the kernel program and the reference compute by the same host operations: from the edge
  list and the transformed node features to the aggregated messages. It is stated once over this program's shapes and
  dimension records, in the pieces the program itself computes one after the other; the other program states the same
  text over its own.
-/
import proofs.«179120_j39582418600193_1_alg».proof.Proof.Gen.KernelIdeal
import Idealize.ShloMosaic.PureOps.Ideal

noncomputable section

namespace Cert.KernelIdeal.Chain

open Cert.KernelIdeal Cert.KernelIdeal.Gen Idealize.ShloMosaic

/-- The sources of all edges: row 0 of the edge list, then the 100000 self-loops 0, 1, 2, …. -/
def src (ei : IVec S2x1600000 32) : IVec S1700000 32 :=
  concatenate S1700000 0
    [⟨S1600000, shapeCast _ (extractStridedSlice S1x1600000 ![0, 0] ei slices_S2x1600000_S1x1600000_0_0) shapeCasts_S1x1600000_S1600000⟩,
     ⟨S100000, iotaInDim S100000 32 0⟩] concatenates_S1600000_S100000_S1700000_d0

/-- The targets of all edges: row 1 of the edge list, then the self-loops. -/
def dst (ei : IVec S2x1600000 32) : IVec S1700000 32 :=
  concatenate S1700000 0
    [⟨S1600000, shapeCast _ (extractStridedSlice S1x1600000 ![1, 0] ei slices_S2x1600000_S1x1600000_1_0) shapeCasts_S1x1600000_S1600000⟩,
     ⟨S100000, iotaInDim S100000 32 0⟩] concatenates_S1600000_S100000_S1700000_d0

/-- One per edge. -/
def ones : FVec Ideal S1700000 .f32 := broadcastInDim S1700000 ![] bcast_S_S1700000 (constant S_ .f32 0x3F800000#32)

/-- For every node the number of edges arriving at it: a scatter-add of the ones at the targets, into zeros. -/
def deg (ei : IVec S2x1600000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst ei)) ones

/-- Where the degree is positive, -/
def degPos (ei : IVec S2x1600000 32) : IVec S100000 1 :=
  cmpf .ogt (deg ei) (broadcastInDim S100000 ![] bcast_S_S100000 (constant S_ .f32 0x00000000#32))

/-- and its inverse square root. -/
def degRsqrt (ei : IVec S2x1600000 32) : FVec Ideal S100000 .f32 := Host.rsqrt (deg ei)

/-- From the index vectors `s`, `d`, the ones `o`, the mask `pos` and inverse square roots `rs` of the degrees, the
    scalar `z` that stands where the mask fails, and the transformed features `xw`, to the aggregated messages:

    * `dinv`: `rs` where `pos` holds and `z` elsewhere;
    * `wrap v`: an index vector with the negative entries moved up by the number of nodes, as array indexing does;
    * the weight of every edge: dinv at its source, times one, times dinv at its target;
    * the message of every edge: its weight on each of the 64 features of its source's row of `xw`;
    * the result: for every node the sum of the messages arriving at it, a scatter-add at the targets into zeros. -/
def tail (s d : IVec S1700000 32) (o : FVec Ideal S1700000 .f32) (pos : IVec S100000 1) (rs : FVec Ideal S100000 .f32)
    (z : FVec Ideal S_ .f32) (xw : FVec Ideal S100000x64 .f32) : FVec Ideal S100000x64 .f32 :=
  let dinv : FVec Ideal S100000 .f32 := select pos rs (broadcastInDim S100000 ![] bcast_S_S100000 (id z))
  let wrap : IVec S1700000 32 → IVec S1700000 32 := fun v => select
    (cmpi .slt v (broadcastInDim S1700000 ![] bcast_S_S1700000 (constantI S_ 32 0#32)))
    (addi v (broadcastInDim S1700000 ![] bcast_S_S1700000 (constantI S_ 32 100000#32))) v
  let norm : FVec Ideal S1700000 .f32 := mulf
    (mulf (Host.gather gather_S100000_S1700000x1_S1700000_n_0_n_n_0_1_1 dinv
        (broadcastInDim S1700000x1 ![0] bcast_S1700000_S1700000x1_0 (wrap s))) o)
    (Host.gather gather_S100000_S1700000x1_S1700000_n_0_n_n_0_1_1 dinv
        (broadcastInDim S1700000x1 ![0] bcast_S1700000_S1700000x1_0 (wrap d)))
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (broadcastInDim S1700000x64 ![0, 1] bcast_S1700000x1_S1700000x64_0_1
        (broadcastInDim S1700000x1 ![0] bcast_S1700000_S1700000x1_0 norm))
      (Host.gather gather_S100000x64_S1700000x1_S1700000x64_1_0_n_n_0_1_164 xw
        (broadcastInDim S1700000x1 ![0] bcast_S1700000_S1700000x1_0 (wrap s))))

/-- The operations the kernel program and the reference share, as ONE function of the edge list `ei` (a 2 × 1600000
    array of node numbers: row 0 the sources, row 1 the targets) and of the transformed features `xw`: the aggregated
    messages, with the symmetric normalisation by the degrees. Neither program's proof looks inside its arithmetic: each
    shows that its own operations compose to it, applied to its own `xw`. -/
def chain (ei : IVec S2x1600000 32) (xw : FVec Ideal S100000x64 .f32) : FVec Ideal S100000x64 .f32 :=
  tail (src ei) (dst ei) ones (degPos ei) (degRsqrt ei) (constant S_ .f32 0x00000000#32) xw

end Cert.KernelIdeal.Chain

end
-- ==== Proof.KernelStretch1.lean ====
/-
  The first stretch of host operations between the kernel program's two pallas regions, read buffer by buffer.

  A stretch takes the buffer contents `Z` it starts from to the fold of its operations over them, so what a buffer holds
  afterwards is a computation: the operation that writes it, applied to what its operands then held. The eighteen
  operations of this stretch build, from the edge list alone, the index vectors of sources and targets (each edge list
  row followed by the self-loops), the vector of ones, the degrees, the mask of positive degrees and the inverse square
  roots of the degrees; they write neither the first region's output nor the bias.
-/
import proofs.«179120_j39582418600193_1_alg».proof.Proof.Gen.KernelIdeal.Frame
import proofs.«179120_j39582418600193_1_alg».proof.Proof.KernelChain
import Idealize.ShloMosaic.PureOps.Ideal
import Idealize.ShloMosaic.Lib.StableHlo.Run

set_option maxRecDepth 16384

noncomputable section

namespace Cert.KernelIdeal.Stretch1

open Cert.KernelIdeal Cert.KernelIdeal.Gen Idealize.ShloMosaic Idealize.ShloMosaic.TcCoe Idealize.SL.Sem Idealize.ShloMosaic.StableHlo

set_option maxHeartbeats 2000000 in
/-- The sources of all edges. -/
theorem src_of (Z : Valuation τ sig (Elt Ideal)) :
    after (hostOps1 (F := Ideal)) Z (Proc.devRef .tc main_v5) = Chain.src (Z (Proc.devRef .tc main_arg1)) := by
  simp only [hostOps1]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

set_option maxHeartbeats 2000000 in
/-- The targets of all edges. -/
theorem dst_of (Z : Valuation τ sig (Elt Ideal)) :
    after (hostOps1 (F := Ideal)) Z (Proc.devRef .tc main_v8) = Chain.dst (Z (Proc.devRef .tc main_arg1)) := by
  simp only [hostOps1]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

set_option maxHeartbeats 2000000 in
/-- One per edge. -/
theorem ones_of (Z : Valuation τ sig (Elt Ideal)) :
    after (hostOps1 (F := Ideal)) Z (Proc.devRef .tc main_v9) = Chain.ones := by
  simp only [hostOps1]
  after_results_simp
  rfl

set_option maxHeartbeats 2000000 in
/-- The mask of nodes of positive degree. -/
theorem degPos_of (Z : Valuation τ sig (Elt Ideal)) :
    after (hostOps1 (F := Ideal)) Z (Proc.devRef .tc main_v14) = Chain.degPos (Z (Proc.devRef .tc main_arg1)) := by
  simp only [hostOps1]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

set_option maxHeartbeats 2000000 in
/-- The inverse square roots of the degrees. -/
theorem degRsqrt_of (Z : Valuation τ sig (Elt Ideal)) :
    after (hostOps1 (F := Ideal)) Z (Proc.devRef .tc main_v15) = Chain.degRsqrt (Z (Proc.devRef .tc main_arg1)) := by
  simp only [hostOps1]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

set_option maxHeartbeats 2000000 in
/-- The scalar zero that stands where the degree is not positive. -/
theorem zero_of (Z : Valuation τ sig (Elt Ideal)) :
    after (hostOps1 (F := Ideal)) Z (Proc.devRef .tc main_cst_2) = (constant S_ .f32 0x00000000#32 : FVec Ideal S_ .f32) := by
  simp only [hostOps1]
  after_results_simp

set_option maxHeartbeats 2000000 in
/-- The first region's output is not written. -/
theorem kept_xw (Z : Valuation τ sig (Elt Ideal)) :
    after (hostOps1 (F := Ideal)) Z (Proc.devRef .tc main_v1) = Z (Proc.devRef .tc main_v1) := by
  simp only [hostOps1]
  after_results_simp

set_option maxHeartbeats 2000000 in
/-- Nor is the bias. -/
theorem kept_bias (Z : Valuation τ sig (Elt Ideal)) :
    after (hostOps1 (F := Ideal)) Z (Proc.devRef .tc main_arg3) = Z (Proc.devRef .tc main_arg3) := by
  simp only [hostOps1]
  after_results_simp

end Cert.KernelIdeal.Stretch1

end
-- ==== Proof.KernelStretch23.lean ====
/-
  The second and third stretches of host operations between the kernel program's two pallas regions, and the one
  operation before the first region, read from ANY starting contents.

  The outlined selection (three operations) and the thirty-seven operations after it take the index vectors, the ones,
  the degree mask, the inverse square roots, the scalar zero and the first region's output — whatever buffers hold them
  when the stretches start — to the aggregated messages, and recast the bias as a 1 × 64 row: these are the second
  region's two operands. Nothing here looks inside the arithmetic: the composed operations are the text of `Chain.tail`.
-/
import proofs.«179120_j39582418600193_1_alg».proof.Proof.Gen.KernelIdeal.Frame
import proofs.«179120_j39582418600193_1_alg».proof.Proof.KernelChain
import Idealize.ShloMosaic.PureOps.Ideal
import Idealize.ShloMosaic.Lib.StableHlo.Run

set_option maxRecDepth 16384

noncomputable section

namespace Cert.KernelIdeal.Stretch23

open Cert.KernelIdeal Cert.KernelIdeal.Gen Idealize.ShloMosaic Idealize.ShloMosaic.TcCoe Idealize.SL.Sem Idealize.ShloMosaic.StableHlo

set_option maxHeartbeats 4000000 in
/-- After the two stretches the second region's first operand holds the aggregated messages of what the stretches found. -/
theorem tail_of (Z : Valuation τ sig (Elt Ideal)) :
    after (hostOps1_2 (F := Ideal)) (after hostOps1_1 Z) (Proc.devRef .tc main_v45)
      = Chain.tail (Z (Proc.devRef .tc main_v5)) (Z (Proc.devRef .tc main_v8)) (Z (Proc.devRef .tc main_v9))
          (Z (Proc.devRef .tc main_v14)) (Z (Proc.devRef .tc main_v15)) (Z (Proc.devRef .tc main_cst_2))
          (Z (Proc.devRef .tc main_v1)) := by
  simp only [hostOps1_2, hostOps1_1]
  after_results_simp
  rfl

set_option maxHeartbeats 4000000 in
/-- … and its second operand the bias, recast from 64 entries to one row of 64. -/
theorem row_of (Z : Valuation τ sig (Elt Ideal)) :
    after (hostOps1_2 (F := Ideal)) (after hostOps1_1 Z) (Proc.devRef .tc main_v46)
      = shapeCast S1x64 (Z (Proc.devRef .tc main_arg3)) shapeCasts_S64_S1x64 := by
  simp only [hostOps1_2, hostOps1_1]
  after_results_simp
  rfl

/-- The one operation before the first region writes the transposed weight, -/
theorem wt_of (Z : Valuation τ sig (Elt Ideal)) :
    after (hostOps0 (F := Ideal)) Z (Proc.devRef .tc main_v0)
      = transpose S64x64 [1, 0] (Z (Proc.devRef .tc main_arg2)) transposes_S64x64_S64x64_1_0 := by
  after_results_simp

/-- and no other buffer. -/
theorem kept0_of (Z : Valuation τ sig (Elt Ideal)) (b : Ref sig .tc) (hb : b ≠ main_v0) :
    after (hostOps0 (F := Ideal)) Z (Proc.devRef .tc b) = Z (Proc.devRef .tc b) := by
  simp only [hostOps0, after_cons, after_nil]
  rw [unary_result_ne]
  exact hb

end Cert.KernelIdeal.Stretch23

end
-- ==== Proof.DenseTiles.lean ====
/-
  The first region's output array as one whole-array function of its two input arrays.

  The region walks the 100000 × 64 array in 20 tiles of 5000 rows. At each point the body reads one tile of the
  features and the whole 64 × 64 weight, narrows both (no change at exact values), and leaves in the output tile,
  at entry (p, u), the sum over k of (feature tile entry (p, k)) · (weight entry (k, u)), accumulated from zero.
  Row p of the tile at point t is row 5000·t + p of the array, on both the input and the output side, and the
  weight is read whole at every point; so each point writes back its tile of the function
  (r, u) ↦ Σₖ x (r, k) · w (k, u)  of the whole arrays. Every row r lies in the tile of the point r / 5000, so the
  tiles cover the array and the array ends holding that function.
-/
import proofs.«179120_j39582418600193_1_alg».proof.Proof.Gen.KernelIdeal.Frame
import proofs.«179120_j39582418600193_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-buffer access, as a constant function. -/
theorem dense_zero_off : (![0, 0] : Fin 2 → Nat) = fun _ => 0 := funext fun a => by fin_cases a <;> rfl

/-- The contraction's left operand is read in the output's row … -/
theorem dense_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the summation index; -/
theorem dense_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the summation index … -/
theorem dense_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … in the output's column. -/
theorem dense_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's arithmetic at entry (p, u) of a tile: Σₖ (tile entry (p, k)) · (weight entry (k, u)); narrowing the
    operands changes no exact value, and the accumulator starts at zero. -/
theorem dense_at (x0 : Vec Ideal S5000x64 .f32) (x1 : Vec Ideal S64x64 .f32) (p : Fin 5000) (u : Fin 64) :
    Gen.k0_pay1 (F := Ideal) x0 x1 (ix2 p u) = ∑ k : Fin 64, x0 (ix2 p k) * x1 (ix2 k u) := by
  unfold Gen.k0_pay1
  rw [shapeCast_self]
  refine (Ideal.matmul_constant_zero_apply dot_S5000x64_S64x64_S5000x64_1_0_0_1_n_n none _ _ (ix2 p u)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p u) ((contrEquiv1 dot_S5000x64_S64x64_S5000x64_1_0_0_1_n_n 64 rfl rfl).symm k) = ix2 p k := funext fun a => Fin.ext (by
    match a with
    | ⟨0, _⟩ => exact dense_lhs_row _ _
    | ⟨1, _⟩ => exact (dense_lhs_col _ _).trans hk)
  have er : dot_S5000x64_S64x64_S5000x64_1_0_0_1_n_n.rhsIdx (ix2 p u) ((contrEquiv1 dot_S5000x64_S64x64_S5000x64_1_0_0_1_n_n 64 rfl rfl).symm k) = ix2 k u := funext fun a => Fin.ext (by
    match a with
    | ⟨0, _⟩ => exact (dense_rhs_row _ _).trans hk
    | ⟨1, _⟩ => exact dense_rhs_col _ _)
  rw [el, er]
  rfl

/-- What the body leaves in the output tile, entry by entry: its one store covers the tile. -/
theorem dense_tile (x0 : Vec Ideal S5000x64 .f32) (x1 : Vec Ideal S64x64 .f32) (p : Fin 5000) (u : Fin 64) :
    Gen.out0_2 (F := Ideal) x0 x1 (ix2 p u) = ∑ k : Fin 64, x0 (ix2 p k) * x1 (ix2 k u) := by
  unfold Gen.out0_2
  rw [View.canon_unit_zero dense_zero_off]
  simp only [View.ld_unit_zero (S := S5000x64) dense_zero_off, View.ld_unit_zero (S := S64x64) dense_zero_off]
  exact dense_at x0 x1 p u

/-- The index maps over the grid: the input tile moves with the output tile along the rows, the weight stays, and
    point t's tile is tile t along the rows. -/
theorem dense_index : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of the input tile at point t is the input array's entry k in the row of the output tile's entry (p, u). -/
theorem dense_in_tile (c : Dev nD) (t : Fin cfg0.N) (p : Fin 5000) (k u : Fin 64) :
    (Gen.iblk0 V c 0 t : Vec Ideal S5000x64 .f32) (ix2 p k)
      = (V c main_arg0 : S100000x64.Idx → Ideal .f32)
          (ix2 (n0 := 100000) (n1 := 64) ((((cfg0.win 2).blk t).view.emb (ix2 p u) : S100000x64.Idx) 0) k) := by
  obtain ⟨e0, e1, -, -, -, -⟩ := dense_index t
  show (V c main_arg0 : S100000x64.Idx → Ideal .f32) (((cfg0.win 0).blk t).view.emb (ix2 p k)) = _
  refine congrArg _ ?_
  funext a; apply Fin.ext
  match a with
  | ⟨0, _⟩ => show win0_0.index t (0 : Fin 2) * 5000 + 1 * p.val = win0_2.index t (0 : Fin 2) * 5000 + 1 * p.val; omega
  | ⟨1, _⟩ => show win0_0.index t (1 : Fin 2) * 64 + 1 * k.val = k.val; omega

/-- Entry (k, u) of the weight tile at point t is the weight's entry in row k and in the column of the output tile's entry (p, u). -/
theorem dense_weight_tile (c : Dev nD) (t : Fin cfg0.N) (p : Fin 5000) (k u : Fin 64) :
    (Gen.iblk0 V c 1 t : Vec Ideal S64x64 .f32) (ix2 k u)
      = (V c main_v0 : S64x64.Idx → Ideal .f32)
          (ix2 (n0 := 64) (n1 := 64) k ((((cfg0.win 2).blk t).view.emb (ix2 p u) : S100000x64.Idx) 1)) := by
  obtain ⟨-, -, e2, e3, -, e5⟩ := dense_index t
  show (V c main_v0 : S64x64.Idx → Ideal .f32) (((cfg0.win 1).blk t).view.emb (ix2 k u)) = _
  refine congrArg _ ?_
  funext a; apply Fin.ext
  match a with
  | ⟨0, _⟩ => show win0_1.index t (0 : Fin 2) * 64 + 1 * k.val = k.val; omega
  | ⟨1, _⟩ => show win0_1.index t (1 : Fin 2) * 64 + 1 * u.val = win0_2.index t (1 : Fin 2) * 64 + 1 * u.val; omega

/-- The whole-array product at an entry e: Σₖ x (e₀, k) · w (k, e₁). -/
theorem feat_at (x : FVec Ideal Cert.Gcn.Nodes .f32) (w : FVec Ideal Cert.Gcn.Sq .f32) (e : S100000x64.Idx) :
    Cert.Gcn.feat x w e
      = ∑ k : Fin 64, x (ix2 (n0 := 100000) (n1 := 64) (e 0) k) * w (ix2 (n0 := 64) (n1 := 64) k (e 1)) := rfl

/-- What point t writes back is tile t of the whole-array product. -/
theorem dense_flushed (c : Dev nD) (t : Fin cfg0.N) :
    (Gen.dat0 (F := Ideal) V c).flushed 2 t = ((cfg0.win 2).blk t).view.read (Elt Ideal) (Cert.Gcn.feat (V c main_arg0) (V c main_v0)) := by
  show (cfg0.win 2).cut (grid0.coords t) ((Gen.dat0 V c).after 2 t) = _
  rw [Gen.after0_2]
  funext j
  obtain ⟨p, u, rfl⟩ : ∃ (p : Fin 5000) (u : Fin 64), j = ix2 p u := ⟨j 0, j 1, eq_ix2 j⟩
  show Gen.out0_2 (Gen.iblk0 V c 0 t) (Gen.iblk0 V c 1 t) (ix2 p u)
    = Cert.Gcn.feat (V c main_arg0) (V c main_v0) (((cfg0.win 2).blk t).view.emb (ix2 p u))
  refine (dense_tile (Gen.iblk0 V c 0 t) (Gen.iblk0 V c 1 t) p u).trans ?_
  refine Eq.trans ?_ (feat_at (V c main_arg0) (V c main_v0) (((cfg0.win 2).blk t).view.emb (ix2 p u))).symm
  refine Finset.sum_congr rfl fun k _ => ?_
  rw [dense_in_tile V c t p k u, dense_weight_tile V c t p k u]

/-- An entry of the array is in point t's tile exactly when each coordinate is in the tile's range on its axis. -/
theorem dense_mem_tile (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v1).slice (win0_2.rect t)).set ↔ _
  rw [View.set_slice_whole, Rect.mem_set_unit]
  exact Iff.rfl

/-- The tiles cover the array: row r lies in the tile of point r / 5000. -/
theorem dense_cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, e4, e5⟩ := dense_index t
  refine ⟨t, Gen.flush0_2 t, ?_⟩
  rw [dense_mem_tile]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the region: the product of the input array with the weight, Σₖ x (r, k) · w (k, u). -/
theorem dense_array (c : Dev nD) :
    (Gen.dat0 (F := Ideal) V c).arrAt 2 cfg0.N = Cert.Gcn.feat (V c main_arg0) (V c main_v0) :=
  (Gen.dat0 (F := Ideal) V c).arrAt_eq_of_cover 2 (Cert.Gcn.feat (V c main_arg0) (V c main_v0))
    (fun t _ => dense_flushed V c t) dense_cover

end Cert.KernelIdeal.Tiles

end
-- ==== Proof.BiasTiles.lean ====
/-
  The second region's output array as one whole-array function of its two input arrays.

  The region walks the 100000 × 64 array in 20 tiles of 5000 rows. At each point the body reads one tile of the
  input and the whole 1 × 64 bias row, and leaves in the output tile, at entry (p, u), the maximum of
  (input tile entry (p, u) + bias entry (0, u)) and zero. Row p of the tile at point t is row 5000·t + p of the
  array, on both the input and the output side, and the column is unchanged; so each point writes back its tile of
  the function  (r, u) ↦ max (a (r, u) + b (0, u)) 0  of the whole arrays. Every row r lies in the tile of the
  point r / 5000, so the tiles cover the array and the array ends holding that function.
-/
import proofs.«179120_j39582418600193_1_alg».proof.Proof.Gen.KernelIdeal.Frame
import proofs.«179120_j39582418600193_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-buffer access, as a constant function. -/
theorem bias_zero_off : (![0, 0] : Fin 2 → Nat) = fun _ => 0 := funext fun a => by fin_cases a <;> rfl

/-- The body's arithmetic at entry (p, u) of a tile: the tile's entry plus the bias row's entry u, floored at zero. -/
theorem bias_at (x0 : Vec Ideal S5000x64 .f32) (x1 : Vec Ideal S1x64 .f32) (p : Fin 5000) (u : Fin 64) :
    Gen.k1_pay1 (F := Ideal) x0 x1 (ix2 p u) = max (x0 (ix2 p u) + x1 (ix2 0 u)) (Ideal.ofBits .f32 0x00000000#32) := by
  unfold Gen.k1_pay1
  rw [maximumf_apply, addf_apply, broadcast_apply, shapeCast_self, shapeCast_self, broadcastTo_1b_ab_apply]
  rfl

/-- What the body leaves in the output tile, entry by entry: its one store covers the tile. -/
theorem bias_tile (x0 : Vec Ideal S5000x64 .f32) (x1 : Vec Ideal S1x64 .f32) (p : Fin 5000) (u : Fin 64) :
    Gen.out1_2 (F := Ideal) x0 x1 (ix2 p u) = max (x0 (ix2 p u) + x1 (ix2 0 u)) (Ideal.ofBits .f32 0x00000000#32) := by
  unfold Gen.out1_2
  rw [View.canon_unit_zero bias_zero_off]
  simp only [View.ld_unit_zero (S := S5000x64) bias_zero_off, View.ld_unit_zero (S := S1x64) bias_zero_off]
  exact bias_at x0 x1 p u

/-- The index maps over the grid: the input tile moves with the output tile, the bias row stays, and point t's
    tile is tile t along the rows. -/
theorem bias_index : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Entry (p, u) of the input tile at point t is the input array's entry under the output tile's entry (p, u). -/
theorem bias_in_tile (c : Dev nD) (t : Fin cfg1.N) (p : Fin 5000) (u : Fin 64) :
    (Gen.iblk1 V c 0 t : Vec Ideal S5000x64 .f32) (ix2 p u)
      = (V c main_v45 : S100000x64.Idx → Ideal .f32) (((cfg1.win 2).blk t).view.emb (ix2 p u)) := by
  obtain ⟨e0, e1, -, -, -, -⟩ := bias_index t
  show (V c main_v45 : S100000x64.Idx → Ideal .f32) (((cfg1.win 0).blk t).view.emb (ix2 p u))
    = (V c main_v45 : S100000x64.Idx → Ideal .f32) (((cfg1.win 2).blk t).view.emb (ix2 p u))
  refine congrArg _ ?_
  funext a; apply Fin.ext
  match a with
  | ⟨0, _⟩ => show win1_0.index t (0 : Fin 2) * 5000 + 1 * p.val = win1_2.index t (0 : Fin 2) * 5000 + 1 * p.val; omega
  | ⟨1, _⟩ => show win1_0.index t (1 : Fin 2) * 64 + 1 * u.val = win1_2.index t (1 : Fin 2) * 64 + 1 * u.val; omega

/-- Entry (0, u) of the bias tile at point t is the bias row's entry in the column of the output tile's entry (p, u). -/
theorem bias_row_tile (c : Dev nD) (t : Fin cfg1.N) (p : Fin 5000) (u : Fin 64) :
    (Gen.iblk1 V c 1 t : Vec Ideal S1x64 .f32) (ix2 0 u)
      = (V c main_v46 : S1x64.Idx → Ideal .f32) (ix2 (n0 := 1) (n1 := 64) 0 ((((cfg1.win 2).blk t).view.emb (ix2 p u) : S100000x64.Idx) 1)) := by
  obtain ⟨-, -, e2, e3, -, e5⟩ := bias_index t
  show (V c main_v46 : S1x64.Idx → Ideal .f32) (((cfg1.win 1).blk t).view.emb (ix2 0 u)) = _
  refine congrArg _ ?_
  funext a; apply Fin.ext
  match a with
  | ⟨0, _⟩ => show win1_1.index t (0 : Fin 2) * 1 + 1 * 0 = 0; omega
  | ⟨1, _⟩ => show win1_1.index t (1 : Fin 2) * 64 + 1 * u.val = win1_2.index t (1 : Fin 2) * 64 + 1 * u.val; omega

/-- What point t writes back is tile t of the whole-array function. -/
theorem bias_flushed (c : Dev nD) (t : Fin cfg1.N) :
    (Gen.dat1 (F := Ideal) V c).flushed 2 t = ((cfg1.win 2).blk t).view.read (Elt Ideal) (Cert.Gcn.biasFloor (V c main_v45) (V c main_v46)) := by
  show (cfg1.win 2).cut (grid1.coords t) ((Gen.dat1 V c).after 2 t) = _
  rw [Gen.after1_2]
  funext j
  obtain ⟨p, u, rfl⟩ : ∃ (p : Fin 5000) (u : Fin 64), j = ix2 p u := ⟨j 0, j 1, eq_ix2 j⟩
  show Gen.out1_2 (Gen.iblk1 V c 0 t) (Gen.iblk1 V c 1 t) (ix2 p u)
    = Cert.Gcn.biasFloor (V c main_v45) (V c main_v46) (((cfg1.win 2).blk t).view.emb (ix2 p u))
  refine (bias_tile (Gen.iblk1 V c 0 t) (Gen.iblk1 V c 1 t) p u).trans ?_
  rw [bias_in_tile V c t p u, bias_row_tile V c t p u]
  rfl

/-- An entry of the array is in point t's tile exactly when each coordinate is in the tile's range on its axis. -/
theorem bias_mem_tile (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- The tiles cover the array: row r lies in the tile of point r / 5000. -/
theorem bias_cover (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, e4, e5⟩ := bias_index t
  refine ⟨t, Gen.flush1_2 t, ?_⟩
  rw [bias_mem_tile]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The output array after the region: the bias row added to every row of the input array, floored at zero. -/
theorem bias_array (c : Dev nD) :
    (Gen.dat1 (F := Ideal) V c).arrAt 2 cfg1.N = Cert.Gcn.biasFloor (V c main_v45) (V c main_v46) :=
  (Gen.dat1 (F := Ideal) V c).arrAt_eq_of_cover 2 (Cert.Gcn.biasFloor (V c main_v45) (V c main_v46))
    (fun t _ => bias_flushed V c t) bias_cover

end Cert.KernelIdeal.Tiles

end
-- ==== Proof.KernelValue.lean ====
/-
  What the kernel program computes, as a function of its arguments.

  The run leaves the result at the second region's exit contents. Read backwards through the program:

  * the second region's output array is its tiles' write-backs, which together are "add the bias row and floor at
    zero" of the region's two operands as it found them;
  * those operands were written by the host stretches between the regions: the aggregated messages — the shared chain of
    the edge list and of the first region's output array — and the bias recast as one row;
  * the first region's output array is its tiles' write-backs, which together are the product of its first operand with
    its second: the node features as launched, and the weight transposed by the one host operation before it;
  * no operation on the way writes the edge list, the features, the weight or the bias.

  So the result is the bias-and-rectifier of the shared chain of the edge list and of x · Wᵀ.
-/
import proofs.«179120_j39582418600193_1_alg».proof.Proof.KernelRun
import proofs.«179120_j39582418600193_1_alg».proof.Proof.KernelStretch1
import proofs.«179120_j39582418600193_1_alg».proof.Proof.KernelStretch23
import proofs.«179120_j39582418600193_1_alg».proof.Proof.DenseTiles
import proofs.«179120_j39582418600193_1_alg».proof.Proof.BiasTiles
import proofs.«179120_j39582418600193_1_alg».proof.Proof.Spec

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The kernel program's result as a function of the launch memory on core `c`: the bias row added to, and zero put
    under, the shared chain of the edge list and of the features times the transposed weight. -/
def out : FVec Ideal Cert.Gcn.Nodes .f32 :=
  Cert.Gcn.biasFloor
    (Chain.chain (m ((c.tc : Thread nD τ).loc main_arg1))
      (Cert.Gcn.feat (m ((c.tc : Thread nD τ).loc main_arg0))
        (transpose S64x64 [1, 0] (m ((c.tc : Thread nD τ).loc main_arg2)) transposes_S64x64_S64x64_1_0)))
    (shapeCast S1x64 (m ((c.tc : Thread nD τ).loc main_arg3)) shapeCasts_S64_S1x64)

/-! ## The first region's operands and output -/

/-- The first region finds the node features as launched: the transpose before it writes another buffer. -/
theorem entry0_x : V1 m ρ c main_arg0 = m ((c.tc : Thread nD τ).loc main_arg0) :=
  (Stretch23.kept0_of (W0 m ρ c) main_arg0 (by decide)).trans rfl

/-- … and the weight transposed. -/
theorem entry0_wt : V1 m ρ c main_v0
    = transpose S64x64 [1, 0] (m ((c.tc : Thread nD τ).loc main_arg2)) transposes_S64x64_S64x64_1_0 :=
  (Stretch23.wt_of (W0 m ρ c)).trans rfl

/-- At the first region's exit its output array holds x · Wᵀ. -/
theorem region0_out : W2 m ρ c (Proc.devRef .tc main_v1)
    = Cert.Gcn.feat (m ((c.tc : Thread nD τ).loc main_arg0))
        (transpose S64x64 [1, 0] (m ((c.tc : Thread nD τ).loc main_arg2)) transposes_S64x64_S64x64_1_0) := by
  rw [show W2 m ρ c (Proc.devRef .tc main_v1) = (dat0 (V1 m ρ) c).arrAt 2 cfg0.N from W2_arr m ρ c 2,
    Tiles.dense_array (V1 m ρ) c, entry0_x, entry0_wt]

/-- The first region leaves the edge list as launched (it is no array of the region, and the transpose did not write it), -/
theorem exit0_edges : W2 m ρ c (Proc.devRef .tc main_arg1) = m ((c.tc : Thread nD τ).loc main_arg1) :=
  (W2_of_ne m ρ c main_arg1 (by decide)).trans ((Stretch23.kept0_of (W0 m ρ c) main_arg1 (by decide)).trans rfl)

/-- and the bias. -/
theorem exit0_bias : W2 m ρ c (Proc.devRef .tc main_arg3) = m ((c.tc : Thread nD τ).loc main_arg3) :=
  (W2_of_ne m ρ c main_arg3 (by decide)).trans ((Stretch23.kept0_of (W0 m ρ c) main_arg3 (by decide)).trans rfl)

/-! ## The second region's operands and output -/

/-- The second region finds, as its first operand, the shared chain of the edge list and of x · Wᵀ: the three host
    stretches from the first region's exit contents, the first read buffer by buffer, the other two from its result. -/
theorem entry1_agg : V5 m ρ c main_v45
    = Chain.chain (m ((c.tc : Thread nD τ).loc main_arg1))
        (Cert.Gcn.feat (m ((c.tc : Thread nD τ).loc main_arg0))
          (transpose S64x64 [1, 0] (m ((c.tc : Thread nD τ).loc main_arg2)) transposes_S64x64_S64x64_1_0)) := by
  show after (hostOps1_2 (F := Ideal)) (after hostOps1_1 (after hostOps1 (W2 m ρ c))) (Proc.devRef .tc main_v45) = _
  rw [Stretch23.tail_of (after hostOps1 (W2 m ρ c)), Stretch1.src_of, Stretch1.dst_of, Stretch1.ones_of, Stretch1.degPos_of,
    Stretch1.degRsqrt_of, Stretch1.zero_of, Stretch1.kept_xw, region0_out, exit0_edges]
  rfl

/-- … and as its second the bias as one row. -/
theorem entry1_row : V5 m ρ c main_v46
    = shapeCast S1x64 (m ((c.tc : Thread nD τ).loc main_arg3)) shapeCasts_S64_S1x64 := by
  show after (hostOps1_2 (F := Ideal)) (after hostOps1_1 (after hostOps1 (W2 m ρ c))) (Proc.devRef .tc main_v46) = _
  rw [Stretch23.row_of (after hostOps1 (W2 m ρ c)), Stretch1.kept_bias, exit0_bias]

/-- At the second region's exit — the last boundary — the result buffer holds `out`. -/
theorem result_eq : W6 m ρ c (Proc.devRef .tc main_v47) = out m c := by
  rw [show W6 m ρ c (Proc.devRef .tc main_v47) = (dat1 (V5 m ρ) c).arrAt 2 cfg1.N from W6_arr m ρ c 2,
    Tiles.bias_array (V5 m ρ) c, entry1_agg, entry1_row]
  rfl

/-! ## The run -/

/-- Every weakly fair execution of the kernel program terminates, nothing faulting, with the result at `out` of the
    launch memory and the arguments as launched. -/
theorem run : θ_run defs (onTc (τ := τ) (main (F := Ideal))) ⟨m, fun _ => 0, ρ⟩ (fun r => ∀ c : Dev nD,
      r.2.mem ((c.tc : Thread nD τ).loc main_v47) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (ValueRun.run m ρ)

end Cert.KernelIdeal.Result

end
-- ==== Proof.ChainsAgree.lean ====
/-
  The shared chain, stated once over the kernel program's shapes and dimension records and once over the reference's,
  is one function: the two programs print the same shapes, the same dimension numbers for their gathers and
  scatter-adds, and the same literals, so the two texts differ only in which program's copy of each record they name,
  and a record is its fields.
-/
import proofs.«179120_j39582418600193_1_alg».proof.Proof.KernelChain
import proofs.«179120_j39582418600193_1_alg».proof.Proof.RefChain

noncomputable section

namespace Cert.Gcn

open Idealize.ShloMosaic

set_option maxHeartbeats 1000000 in
/-- The two statements of the shared chain agree on every edge list and every feature array. -/
theorem chain_agree (ei : IVec Cert.KernelIdeal.S2x1600000 32) (xw : FVec Ideal Cert.KernelIdeal.S100000x64 .f32) :
    Cert.KernelIdeal.Chain.chain ei xw = Cert.ReferenceIdeal.Chain.chain ei xw := rfl

/-- So do the two programs' transposes of the weight. -/
theorem transpose_agree (w : FVec Ideal Cert.KernelIdeal.S64x64 .f32) :
    transpose Cert.KernelIdeal.S64x64 [1, 0] w Cert.KernelIdeal.Gen.transposes_S64x64_S64x64_1_0
      = transpose Cert.ReferenceIdeal.S64x64 [1, 0] w Cert.ReferenceIdeal.Gen.transposes_S64x64_S64x64_1_0 := rfl

end Cert.Gcn

end
-- ==== Proof.BiasRows.lean ====
/-
  The bias as a one-row array, spelt two ways. One program recasts the 64-entry bias b as a 1 × 64 row (a change of
  shape that keeps the row-major order), the other broadcasts it to a 1 × 64 row along the second axis. Both rows
  hold b u at (0, u); "add the bias row, then floor at zero" reads its row only at the entries (0, u), so it gives
  the same array for both.
-/
import proofs.«179120_j39582418600193_1_alg».proof.Proof.Gen.KernelIdeal
import proofs.«179120_j39582418600193_1_alg».proof.Proof.Gen.ReferenceIdeal
import proofs.«179120_j39582418600193_1_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.Gcn

open Idealize.ShloMosaic Idealize.ShloMosaic.ValueIdx

/-- The recast row and the broadcast row agree at (0, u): both hold b u there. -/
theorem biasRow_at (b : FVec Ideal Cert.KernelIdeal.S64 .f32)
    (h₁ : Cert.KernelIdeal.S64.ShapeCasts Cert.KernelIdeal.S1x64)
    (h₂ : Cert.ReferenceIdeal.S64.BroadcastsInDim Cert.ReferenceIdeal.S1x64 (![1] : Fin 1 → Fin Cert.ReferenceIdeal.S1x64.rank))
    (u : Fin 64) :
    shapeCast Cert.KernelIdeal.S1x64 b h₁ (ix2 (n0 := 1) (n1 := 64) 0 u)
      = broadcastInDim Cert.ReferenceIdeal.S1x64 ![1] h₂ b (ix2 (n0 := 1) (n1 := 64) 0 u) := by
  refine (shapeCast_a_1a_apply b h₁ 0 u).trans ?_
  refine (broadcastInDim_apply ![1] h₂ b (ix2 (n0 := 1) (n1 := 64) 0 u) (ix1 u) fun a => ?_).symm
  match a with
  | ⟨0, _⟩ =>
    show u.val = if (64 : Nat) = 1 then 0 else u.val
    rw [if_neg (by decide)]

/-- "Add the bias row, then floor at zero" of the recast row is that of the broadcast row. -/
theorem biasRow_agree (a : FVec Ideal Nodes .f32) (b : FVec Ideal Cert.KernelIdeal.S64 .f32)
    (h₁ : Cert.KernelIdeal.S64.ShapeCasts Cert.KernelIdeal.S1x64)
    (h₂ : Cert.ReferenceIdeal.S64.BroadcastsInDim Cert.ReferenceIdeal.S1x64 (![1] : Fin 1 → Fin Cert.ReferenceIdeal.S1x64.rank)) :
    biasFloor a (shapeCast Cert.KernelIdeal.S1x64 b h₁)
      = biasFloor a (broadcastInDim Cert.ReferenceIdeal.S1x64 ![1] h₂ b) := by
  funext i
  unfold biasFloor
  exact congrArg (fun r => max (a i + r) (Ideal.ofBits .f32 0x00000000#32)) (biasRow_at b h₁ h₂ (i 1))

/-- The same at the two programs' own side-condition proofs. -/
theorem biasRow_agree_printed (a : FVec Ideal Nodes .f32) (b : FVec Ideal Cert.KernelIdeal.S64 .f32) :
    biasFloor a (shapeCast Cert.KernelIdeal.S1x64 b Cert.KernelIdeal.Gen.shapeCasts_S64_S1x64)
      = biasFloor a (broadcastInDim Cert.ReferenceIdeal.S1x64 ![1] Cert.ReferenceIdeal.Gen.bcast_S64_S1x64_1 b) :=
  biasRow_agree a b _ _

end Cert.Gcn

end
-- ==== Proof.Bridge.lean ====
/-
  The two programs compute one function of the arguments.

  The kernel program's result is "bias row and rectifier" of the shared chain of the edge list and of the features times
  the transposed weight, the bias row being the bias recast as a 1 × 64 array. The reference's result is the same
  expression over its own copies of the chain, of the transpose and of the shapes, the bias row being the bias broadcast
  to a 1 × 64 array. The two chains are one function and so are the two transposes (the programs print the same shapes,
  dimension numbers and literals); and a reshape and a broadcast of 64 entries into one row of 64 give the same row. So
  from memories that agree on the four arguments the two results are equal, entry by entry, as extended reals. No
  property of the inputs is used: not even their finiteness.
-/
import proofs.«179120_j39582418600193_1_alg».proof.Proof.KernelValue
import proofs.«179120_j39582418600193_1_alg».proof.Proof.RefChain
import proofs.«179120_j39582418600193_1_alg».proof.Proof.ChainsAgree
import proofs.«179120_j39582418600193_1_alg».proof.Proof.BiasRows
import proofs.«179120_j39582418600193_1_alg».proof.Proof.Spec

noncomputable section

namespace Cert.Gcn

open Idealize.ShloMosaic Idealize.ShloMosaic.TcCoe Idealize.SL.Sem

/-- What the reference computes, as a function of its launch memory on core `c`. -/
def refOut (m' : (ℓ : Loc Cert.ReferenceIdeal.nD Cert.ReferenceIdeal.τ Cert.ReferenceIdeal.sig) → Buf (Elt Ideal) ℓ)
    (c : Dev Cert.ReferenceIdeal.nD) : FVec Ideal Nodes .f32 :=
  biasFloor
    (Cert.ReferenceIdeal.Chain.chain (m' ((c.tc : Thread Cert.ReferenceIdeal.nD Cert.ReferenceIdeal.τ).loc Cert.ReferenceIdeal.main_arg1))
      (feat (m' ((c.tc : Thread Cert.ReferenceIdeal.nD Cert.ReferenceIdeal.τ).loc Cert.ReferenceIdeal.main_arg0))
        (transpose Cert.ReferenceIdeal.S64x64 [1, 0]
          (m' ((c.tc : Thread Cert.ReferenceIdeal.nD Cert.ReferenceIdeal.τ).loc Cert.ReferenceIdeal.main_arg2))
          Cert.ReferenceIdeal.Gen.transposes_S64x64_S64x64_1_0)))
    (broadcastInDim Cert.ReferenceIdeal.S1x64 ![1] Cert.ReferenceIdeal.Gen.bcast_S64_S1x64_1
      (m' ((c.tc : Thread Cert.ReferenceIdeal.nD Cert.ReferenceIdeal.τ).loc Cert.ReferenceIdeal.main_arg3)))

/-- From memories that agree on the four arguments, the reference's result is the kernel program's. -/
theorem outs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    refOut m' c = Cert.KernelIdeal.Result.out m c := by
  unfold refOut Cert.KernelIdeal.Result.out
  rw [h0, h1, h2, h3, ← chain_agree, ← transpose_agree]
  exact (biasRow_agree _ _ _ _).symm

end Cert.Gcn

end
-- ==== Proof.lean ====
/-
  A graph-convolution layer: the kernel program against its reference, over the extended reals.

  Both programs take node features x (100000 × 64), an edge list (2 × 1600000 node numbers), a weight W (64 × 64) and a
  bias b (64), add a self-loop at every node, weigh each edge by the inverse square roots of its endpoints' degrees, and
  return, for every node p and feature u,

      max ( Σ over edges e into p of  norm e · (x · Wᵀ) (source e, u)  +  b u ,  0 ).

  The kernel program computes x · Wᵀ in a pallas region, tile by tile on the matrix unit, and the bias and rectifier in a
  second region, tile by tile; everything between — the index vectors with their self-loops, the degrees by a
  scatter-add, the inverse square roots, the gather of source rows and the scatter-add into target rows — it leaves to the
  same host operations the reference uses. The reference computes x · Wᵀ as one contraction and the bias and rectifier as
  whole-array operations.

  The proof follows that division.
  * The shared operations are named once as a function of the edge list and of x · Wᵀ and never opened; each program's
    operations compose to it, and the two programs' copies of it are one function.
  * Each region's output array is its tiles' write-backs, which cover the array and are the restrictions of one
    whole-array function: the product Σₖ x (p, k) · Wᵀ (k, u), and "add the bias row, floor at zero". On the matrix unit
    the operands are narrowed to bf16, which at exact values is no change; the tiles' sums and the reference's one sum are
    the same finite sum.
  * The kernel program's run is the launch of its six segments (the frame already establishes each), read at the result
    buffer as well as at the arguments; the reference's run is a straight line of host operations.
  No law that fails at infinities is used, so the precondition (finite inputs) is never opened. The idealization rewrote
  nothing, so the third claim is trivial.
-/
import proofs.«179120_j39582418600193_1_alg».proof.Defs
import proofs.«179120_j39582418600193_1_alg».proof.Proof.Gen.Kernel
import proofs.«179120_j39582418600193_1_alg».proof.Proof.Gen.Kernel.Frame
import proofs.«179120_j39582418600193_1_alg».proof.Proof.Gen.KernelIdeal
import proofs.«179120_j39582418600193_1_alg».proof.Proof.Gen.KernelIdeal.Frame
import proofs.«179120_j39582418600193_1_alg».proof.Proof.Gen.ReferenceIdeal
import proofs.«179120_j39582418600193_1_alg».proof.Proof.Gen.Pre_finite_inputs
import proofs.«179120_j39582418600193_1_alg».proof.Proof.RefRun
import proofs.«179120_j39582418600193_1_alg».proof.Proof.RefValue
import proofs.«179120_j39582418600193_1_alg».proof.Proof.KernelValue
import proofs.«179120_j39582418600193_1_alg».proof.Proof.Bridge
import Idealize.ShloMosaic.Adequacy
import Idealize.ShloMosaic.Init

noncomputable section

namespace Cert.Proof

open Idealize.ShloMosaic Idealize.SL.Sem

/-- The kernel program as printed runs, nothing faulting, and leaves its arguments: its two regions' bodies load, compute
    and store through whole rectangles at every grid point. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference is a straight line of host operations, none of which writes an argument. -/
theorem frame_reference : Cert.frame_ReferenceIdeal := fun m ρ _ => Cert.ReferenceIdeal.HostRun.frame (F := Ideal) m ρ

/-- The idealization rewrote no operation. -/
theorem preserves : Cert.preserves_Kernel_KernelIdeal := trivial

/-- From memories agreeing on the arguments both programs run, and end with equal results: the kernel program's is
    `Result.out` of its memory, the reference's the same expression over its own copies of the shared operations, and the
    two are one function of the arguments. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun r h c => ⟨?_,
      (h c Cert.ReferenceIdeal.main_arg0).trans (Cert.ReferenceIdeal.HostRun.kept_arg0 m' c),
      (h c Cert.ReferenceIdeal.main_arg1).trans (Cert.ReferenceIdeal.HostRun.kept_arg1 m' c),
      (h c Cert.ReferenceIdeal.main_arg2).trans (Cert.ReferenceIdeal.HostRun.kept_arg2 m' c),
      (h c Cert.ReferenceIdeal.main_arg3).trans (Cert.ReferenceIdeal.HostRun.kept_arg3 m' c)⟩)
    (Cert.ReferenceIdeal.HostRun.run (F := Ideal) m' ρ')
  exact ((h c Cert.ReferenceIdeal.main_v49).trans (Cert.ReferenceIdeal.HostValue.result_eq m' c)).trans
    (Cert.Gcn.outs_agree m m' c (hagree c).1 (hagree c).2.1 (hagree c).2.2.1 (hagree c).2.2.2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
